-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S16x7 .f32) (main_arg7 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg6
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg7
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S8192x512 .f32) (main_arg1 : IVec S262144 32) (main_arg2 : IVec S262144 32) (main_arg3 : FVec F S262144 .f32) (main_arg4 : FVec F S512x16 .f32) (main_arg5 : FVec F S16 .f32) (main_arg6 : FVec F S16x7 .f32) (main_arg7 : FVec F S7 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x16 .f32 := Host.absf main_arg4
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_v13 main_v16
-- ==== Kernel.lean ====
abbrev S8192x512 : Shape := ⟨2, ![8192, 512]⟩
abbrev S262144 : Shape := ⟨1, ![262144]⟩
abbrev S512x16 : Shape := ⟨2, ![512, 16]⟩
abbrev S16 : Shape := ⟨1, ![16]⟩
abbrev S16x7 : Shape := ⟨2, ![16, 7]⟩
abbrev S7 : Shape := ⟨1, ![7]⟩
abbrev S8192x16 : Shape := ⟨2, ![8192, 16]⟩
abbrev S262144x1 : Shape := ⟨2, ![262144, 1]⟩
abbrev S_ : Shape := ⟨0, ![]⟩
abbrev S262144x16 : Shape := ⟨2, ![262144, 16]⟩
abbrev S1x16 : Shape := ⟨2, ![1, 16]⟩
abbrev S8192x7 : Shape := ⟨2, ![8192, 7]⟩
abbrev S262144x7 : Shape := ⟨2, ![262144, 7]⟩
abbrev S1x7 : Shape := ⟨2, ![1, 7]⟩
abbrev S8192x8192 : Shape := ⟨2, ![8192, 8192]⟩
abbrev S2048x7 : Shape := ⟨2, ![2048, 7]⟩
abbrev S2048x2048 : Shape := ⟨2, ![2048, 2048]⟩
abbrev S7x2048 : Shape := ⟨2, ![7, 2048]⟩
abbrev S67108864 : Shape := ⟨1, ![67108864]⟩

abbrev nBuf : Space → Nat
  | .hbm => 53
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x16, .f32⟩
  | .hbm, ⟨5, _⟩ => ⟨S16, .f32⟩
  | .hbm, ⟨6, _⟩ => ⟨S16x7, .f32⟩
  | .hbm, ⟨7, _⟩ => ⟨S7, .f32⟩
  | .hbm, ⟨8, _⟩ => ⟨S8192x16, .f32⟩
  | .hbm, ⟨9, _⟩ => ⟨S262144x1, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x16, .f32⟩
  | .hbm, ⟨19, _⟩ => ⟨S262144x16, .f32⟩
  | .hbm, ⟨20, _⟩ => ⟨S262144x16, .f32⟩
  | .hbm, ⟨21, _⟩ => ⟨S_, .f32⟩
  | .hbm, ⟨22, _⟩ => ⟨S8192x16, .f32⟩
  | .hbm, ⟨23, _⟩ => ⟨S262144x1, .i32⟩
  | .hbm, ⟨24, _⟩ => ⟨S8192x16, .f32⟩
  | .hbm, ⟨25, _⟩ => ⟨S1x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x16, .f32⟩
  | .hbm, ⟨30, _⟩ => ⟨S8192x16, .f32⟩
  | .hbm, ⟨31, _⟩ => ⟨S8192x7, .f32⟩
  | .hbm, ⟨32, _⟩ => ⟨S262144x1, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x7, .f32⟩
  | .hbm, ⟨42, _⟩ => ⟨S262144x7, .f32⟩
  | .hbm, ⟨43, _⟩ => ⟨S262144x7, .f32⟩
  | .hbm, ⟨44, _⟩ => ⟨S_, .f32⟩
  | .hbm, ⟨45, _⟩ => ⟨S8192x7, .f32⟩
  | .hbm, ⟨46, _⟩ => ⟨S262144x1, .i32⟩
  | .hbm, ⟨47, _⟩ => ⟨S8192x7, .f32⟩
  | .hbm, ⟨48, _⟩ => ⟨S1x7, .f32⟩
  | .hbm, ⟨49, _⟩ => ⟨S8192x7, .f32⟩
  | .hbm, ⟨50, _⟩ => ⟨S8192x7, .f32⟩
  | .hbm, ⟨51, _⟩ => ⟨S8192x8192, .f32⟩
  | .hbm, ⟨52, _⟩ => ⟨S67108864, .f32⟩
  | .local _ .vmem, ⟨0, _⟩ => ⟨S2048x7, .f32⟩
  | .local _ .vmem, ⟨1, _⟩ => ⟨S2048x7, .f32⟩
  | .local _ .vmem, ⟨2, _⟩ => ⟨S2048x7, .f32⟩
  | .local _ .vmem, ⟨3, _⟩ => ⟨S2048x7, .f32⟩
  | .local _ .vmem, ⟨4, _⟩ => ⟨S2048x2048, .f32⟩
  | .local _ .vmem, ⟨5, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x16_0_1 : S262144x1.BroadcastsInDim S262144x16 (![0, 1] : Fin 2 → Fin S262144x16.rank)
  bcast_S_S8192x16 : S_.BroadcastsInDim S8192x16 (![] : Fin 0 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S262144x1_S262144x7_0_1 : S262144x1.BroadcastsInDim S262144x7 (![0, 1] : Fin 2 → Fin S262144x7.rank)
  bcast_S_S8192x7 : S_.BroadcastsInDim S8192x7 (![] : Fin 0 → Fin S8192x7.rank)
  bcast_S7_S1x7_1 : S7.BroadcastsInDim S1x7 (![1] : Fin 1 → Fin S1x7.rank)
  bcast_S1x7_S8192x7_0_1 : S1x7.BroadcastsInDim S8192x7 (![0, 1] : Fin 2 → Fin S8192x7.rank)
  inb_S2048x7_S2048x7_0_0 : ∀ a, (![0, 0] : Fin 2 → Nat) a + S2048x7.size a ≤ S2048x7.size a
  h_S2048x7 : 0 < S2048x7.numel
  shapeCasts_S2048x7_S2048x7 : S2048x7.ShapeCasts S2048x7
  transposes_S2048x7_p1_0_S7x2048 : S2048x7.Transposes [1, 0] S7x2048
  inb_S2048x2048_S2048x2048_0_0 : ∀ a, (![0, 0] : Fin 2 → Nat) a + S2048x2048.size a ≤ S2048x2048.size a
  h_S2048x2048 : 0 < S2048x2048.numel
  shapeCasts_S8192x8192_S67108864 : S8192x8192.ShapeCasts S67108864
  dot_S8192x512_S512x16_S8192x16_1_0_0_1_n_n_wf : DotDims.WF S8192x512 S512x16 S8192x16 [1] [0] [0] [1] [] []
  gather_S8192x16_S262144x1_S262144x16_1_0_n_n_0_1_116_wf : GatherDims.WF S8192x16 S262144x1 S262144x16 [1] [0] [] [0] [] 1 ![1, 16]
  scatter_S8192x16_S262144x1_S262144x16_1_0_0_1_wf : ScatterDims.WF S8192x16 S262144x1 S262144x16 [1] [0] [0] 1
  dot_S8192x16_S16x7_S8192x7_1_0_0_1_n_n_wf : DotDims.WF S8192x16 S16x7 S8192x7 [1] [0] [0] [1] [] []
  gather_S8192x7_S262144x1_S262144x7_1_0_n_n_0_1_17_wf : GatherDims.WF S8192x7 S262144x1 S262144x7 [1] [0] [] [0] [] 1 ![1, 7]
  scatter_S8192x7_S262144x1_S262144x7_1_0_0_1_wf : ScatterDims.WF S8192x7 S262144x1 S262144x7 [1] [0] [0] 1
  dot_S2048x7_S7x2048_S2048x2048_1_0_0_1_n_n_wf : DotDims.WF S2048x7 S7x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x7.size a ≤ S8192x7.size a
  hwx0_0 : ∀ i : grid0.Coords, EltTy.bits .f32 = 32 ∨ (Rect.block (s := S8192x7) S2048x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x7.size a ≤ S8192x7.size a
  hwx0_1 : ∀ i : grid0.Coords, EltTy.bits .f32 = 32 ∨ (Rect.block (s := S8192x7) S2048x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def dot_S8192x512_S512x16_S8192x16_1_0_0_1_n_n : DotDims S8192x512 S512x16 S8192x16 where
  lhsContracting := [1]
  rhsContracting := [0]
  lhsNonContracting := [0]
  rhsNonContracting := [1]
  lhsBatch := []
  rhsBatch := []
  wf := dot_S8192x512_S512x16_S8192x16_1_0_0_1_n_n_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf
def scatter_S8192x16_S262144x1_S262144x16_1_0_0_1 : ScatterDims S8192x16 S262144x1 S262144x16 where
  updateWindowDims := [1]
  insertedWindowDims := [0]
  scatterDimsToOperandDims := [0]
  indexVectorDim := 1
  wf := scatter_S8192x16_S262144x1_S262144x16_1_0_0_1_wf
def dot_S8192x16_S16x7_S8192x7_1_0_0_1_n_n : DotDims S8192x16 S16x7 S8192x7 where
  lhsContracting := [1]
  rhsContracting := [0]
  lhsNonContracting := [0]
  rhsNonContracting := [1]
  lhsBatch := []
  rhsBatch := []
  wf := dot_S8192x16_S16x7_S8192x7_1_0_0_1_n_n_wf
def gather_S8192x7_S262144x1_S262144x7_1_0_n_n_0_1_17 : GatherDims S8192x7 S262144x1 S262144x7 where
  offsetDims := [1]
  collapsedSliceDims := [0]
  operandBatchingDims := []
  startIndicesBatchingDims := []
  startIndexMap := [0]
  indexVectorDim := 1
  sliceSizes := ![1, 7]
  wf := gather_S8192x7_S262144x1_S262144x7_1_0_n_n_0_1_17_wf
def scatter_S8192x7_S262144x1_S262144x7_1_0_0_1 : ScatterDims S8192x7 S262144x1 S262144x7 where
  updateWindowDims := [1]
  insertedWindowDims := [0]
  scatterDimsToOperandDims := [0]
  indexVectorDim := 1
  wf := scatter_S8192x7_S262144x1_S262144x7_1_0_0_1_wf
def dot_S2048x7_S7x2048_S2048x2048_1_0_0_1_n_n : DotDims S2048x7 S7x2048 S2048x2048 where
  lhsContracting := [1]
  rhsContracting := [0]
  lhsNonContracting := [0]
  rhsNonContracting := [1]
  lhsBatch := []
  rhsBatch := []
  wf := dot_S2048x7_S7x2048_S2048x2048_1_0_0_1_n_n_wf

abbrev win0_0 : Pipeline.Window sig grid0 :=
  Pipeline.Window.ofSpec (Memref.whole main_v34) S2048x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2048x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S262144 : Shape := ⟨1, ![262144]⟩
abbrev S512x16 : Shape := ⟨2, ![512, 16]⟩
abbrev S16 : Shape := ⟨1, ![16]⟩
abbrev S16x7 : Shape := ⟨2, ![16, 7]⟩
abbrev S7 : Shape := ⟨1, ![7]⟩
abbrev S8192x16 : Shape := ⟨2, ![8192, 16]⟩
abbrev S262144x1 : Shape := ⟨2, ![262144, 1]⟩
abbrev S_ : Shape := ⟨0, ![]⟩
abbrev S262144x16 : Shape := ⟨2, ![262144, 16]⟩
abbrev S1x16 : Shape := ⟨2, ![1, 16]⟩
abbrev S8192x7 : Shape := ⟨2, ![8192, 7]⟩
abbrev S262144x7 : Shape := ⟨2, ![262144, 7]⟩
abbrev S1x7 : Shape := ⟨2, ![1, 7]⟩
abbrev S7x8192 : Shape := ⟨2, ![7, 8192]⟩
abbrev S8192x8192 : Shape := ⟨2, ![8192, 8192]⟩
abbrev S67108864 : Shape := ⟨1, ![67108864]⟩

abbrev nBuf : Space → Nat
  | .hbm => 54
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x16, .f32⟩
  | .hbm, ⟨5, _⟩ => ⟨S16, .f32⟩
  | .hbm, ⟨6, _⟩ => ⟨S16x7, .f32⟩
  | .hbm, ⟨7, _⟩ => ⟨S7, .f32⟩
  | .hbm, ⟨8, _⟩ => ⟨S8192x16, .f32⟩
  | .hbm, ⟨9, _⟩ => ⟨S262144x1, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x16, .f32⟩
  | .hbm, ⟨19, _⟩ => ⟨S262144x16, .f32⟩
  | .hbm, ⟨20, _⟩ => ⟨S262144x16, .f32⟩
  | .hbm, ⟨21, _⟩ => ⟨S_, .f32⟩
  | .hbm, ⟨22, _⟩ => ⟨S8192x16, .f32⟩
  | .hbm, ⟨23, _⟩ => ⟨S262144x1, .i32⟩
  | .hbm, ⟨24, _⟩ => ⟨S8192x16, .f32⟩
  | .hbm, ⟨25, _⟩ => ⟨S1x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x16, .f32⟩
  | .hbm, ⟨30, _⟩ => ⟨S8192x16, .f32⟩
  | .hbm, ⟨31, _⟩ => ⟨S8192x7, .f32⟩
  | .hbm, ⟨32, _⟩ => ⟨S262144x1, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x7, .f32⟩
  | .hbm, ⟨42, _⟩ => ⟨S262144x7, .f32⟩
  | .hbm, ⟨43, _⟩ => ⟨S262144x7, .f32⟩
  | .hbm, ⟨44, _⟩ => ⟨S_, .f32⟩
  | .hbm, ⟨45, _⟩ => ⟨S8192x7, .f32⟩
  | .hbm, ⟨46, _⟩ => ⟨S262144x1, .i32⟩
  | .hbm, ⟨47, _⟩ => ⟨S8192x7, .f32⟩
  | .hbm, ⟨48, _⟩ => ⟨S1x7, .f32⟩
  | .hbm, ⟨49, _⟩ => ⟨S8192x7, .f32⟩
  | .hbm, ⟨50, _⟩ => ⟨S8192x7, .f32⟩
  | .hbm, ⟨51, _⟩ => ⟨S7x8192, .f32⟩
  | .hbm, ⟨52, _⟩ => ⟨S8192x8192, .f32⟩
  | .hbm, ⟨53, _⟩ => ⟨S67108864, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x16_0_1 : S262144x1.BroadcastsInDim S262144x16 (![0, 1] : Fin 2 → Fin S262144x16.rank)
  bcast_S_S8192x16 : S_.BroadcastsInDim S8192x16 (![] : Fin 0 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S262144x1_S262144x7_0_1 : S262144x1.BroadcastsInDim S262144x7 (![0, 1] : Fin 2 → Fin S262144x7.rank)
  bcast_S_S8192x7 : S_.BroadcastsInDim S8192x7 (![] : Fin 0 → Fin S8192x7.rank)
  bcast_S7_S1x7_1 : S7.BroadcastsInDim S1x7 (![1] : Fin 1 → Fin S1x7.rank)
  bcast_S1x7_S8192x7_0_1 : S1x7.BroadcastsInDim S8192x7 (![0, 1] : Fin 2 → Fin S8192x7.rank)
  transposes_S8192x7_S7x8192_1_0 : S8192x7.Transposes [1, 0] S7x8192
  shapeCasts_S8192x8192_S67108864 : S8192x8192.ShapeCasts S67108864
  dot_S8192x512_S512x16_S8192x16_1_0_0_1_n_n_wf : DotDims.WF S8192x512 S512x16 S8192x16 [1] [0] [0] [1] [] []
  gather_S8192x16_S262144x1_S262144x16_1_0_n_n_0_1_116_wf : GatherDims.WF S8192x16 S262144x1 S262144x16 [1] [0] [] [0] [] 1 ![1, 16]
  scatter_S8192x16_S262144x1_S262144x16_1_0_0_1_wf : ScatterDims.WF S8192x16 S262144x1 S262144x16 [1] [0] [0] 1
  dot_S8192x16_S16x7_S8192x7_1_0_0_1_n_n_wf : DotDims.WF S8192x16 S16x7 S8192x7 [1] [0] [0] [1] [] []
  gather_S8192x7_S262144x1_S262144x7_1_0_n_n_0_1_17_wf : GatherDims.WF S8192x7 S262144x1 S262144x7 [1] [0] [] [0] [] 1 ![1, 7]
  scatter_S8192x7_S262144x1_S262144x7_1_0_0_1_wf : ScatterDims.WF S8192x7 S262144x1 S262144x7 [1] [0] [0] 1
  dot_S8192x7_S7x8192_S8192x8192_1_0_0_1_n_n_wf : DotDims.WF S8192x7 S7x8192 S8192x8192 [1] [0] [0] [1] [] []

variable [Facts₀]

def dot_S8192x512_S512x16_S8192x16_1_0_0_1_n_n : DotDims S8192x512 S512x16 S8192x16 where
  lhsContracting := [1]
  rhsContracting := [0]
  lhsNonContracting := [0]
  rhsNonContracting := [1]
  lhsBatch := []
  rhsBatch := []
  wf := dot_S8192x512_S512x16_S8192x16_1_0_0_1_n_n_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf
def scatter_S8192x16_S262144x1_S262144x16_1_0_0_1 : ScatterDims S8192x16 S262144x1 S262144x16 where
  updateWindowDims := [1]
  insertedWindowDims := [0]
  scatterDimsToOperandDims := [0]
  indexVectorDim := 1
  wf := scatter_S8192x16_S262144x1_S262144x16_1_0_0_1_wf
def dot_S8192x16_S16x7_S8192x7_1_0_0_1_n_n : DotDims S8192x16 S16x7 S8192x7 where
  lhsContracting := [1]
  rhsContracting := [0]
  lhsNonContracting := [0]
  rhsNonContracting := [1]
  lhsBatch := []
  rhsBatch := []
  wf := dot_S8192x16_S16x7_S8192x7_1_0_0_1_n_n_wf
def gather_S8192x7_S262144x1_S262144x7_1_0_n_n_0_1_17 : GatherDims S8192x7 S262144x1 S262144x7 where
  offsetDims := [1]
  collapsedSliceDims := [0]
  operandBatchingDims := []
  startIndicesBatchingDims := []
  startIndexMap := [0]
  indexVectorDim := 1
  sliceSizes := ![1, 7]
  wf := gather_S8192x7_S262144x1_S262144x7_1_0_n_n_0_1_17_wf
def scatter_S8192x7_S262144x1_S262144x7_1_0_0_1 : ScatterDims S8192x7 S262144x1 S262144x7 where
  updateWindowDims := [1]
  insertedWindowDims := [0]
  scatterDimsToOperandDims := [0]
  indexVectorDim := 1
  wf := scatter_S8192x7_S262144x1_S262144x7_1_0_0_1_wf
def dot_S8192x7_S7x8192_S8192x8192_1_0_0_1_n_n : DotDims S8192x7 S7x8192 S8192x8192 where
  lhsContracting := [1]
  rhsContracting := [0]
  lhsNonContracting := [0]
  rhsNonContracting := [1]
  lhsBatch := []
  rhsBatch := []
  wf := dot_S8192x7_S7x8192_S8192x8192_1_0_0_1_n_n_wf

class Facts : Prop extends Facts₀ where

variable [Facts]
-- ==== Proof.DecodeBodyBits.lean ====
/-
  The decode tile. One grid point of the kernel reads a 2048×7 block of rows of the latent matrix z through its
  first window, another 2048×7 block of rows of the same matrix through its second window, and overwrites the
  whole 2048×2048 output tile with the product of the first block and the transpose of the second, accumulated
  from zero. This module states what the output tile holds after the body as a function of the two blocks
  (the single store, read as a covering piece) and proves the body's triple: started with the two input tiles
  at given contents and the output tile at anything, the body ends with the inputs as they were and the output
  tile at that function of them. The triple is for every float instance.
-/
import proofs.«158562_j23356032156160_1_alg».proof.Proof.Gen.Kernel.Launch
import proofs.«158562_j23356032156160_1_alg».proof.Proof.Gen.Kernel.Skeleton
import proofs.«158562_j23356032156160_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 2048×7 input tile and the whole 2048×2048 output tile, as the body's accesses spell them. -/
abbrev rIn : Rect S2048x7 := Rect.unit (s := S2048x7) ![0, 0] S2048x7.size inb_S2048x7_S2048x7_0_0
abbrev rOut : Rect S2048x2048 := Rect.unit (s := S2048x2048) ![0, 0] S2048x2048.size inb_S2048x2048_S2048x2048_0_0

/-- What the output tile holds after the body, from the two input tiles: its one store, which covers it. -/
def tile (x0 x1 : Vec F S2048x7 .f32) : Vec F S2048x2048 .f32 :=
  View.canon [⟨rOut, k0_pay1 (View.ld x0 rIn) (View.ld x1 rIn)⟩]

/-- The store's rectangle is the whole tile. -/
theorem tile_cover (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging tiles: the inputs at contents `x0`, `x1`, the output at anything; it ends with the
    inputs unchanged and the output at `tile x0 x1`. (The body also loads the output tile before overwriting
    it; the value loaded is never used.) -/
theorem sound_kernel (c : Dev nD) (E : Set ℕ) (i : grid0.Coords)
    (arg2 : Memref sig .tc .vmem S2048x7 .f32) (harg2 : arg2.IsWhole)
    (arg3 : Memref sig .tc .vmem S2048x7 .f32) (harg3 : arg3.IsWhole)
    (arg4 : Memref sig .tc .vmem S2048x2048 .f32) (harg4 : arg4.IsWhole)
    (x0 x1 : Vec F S2048x7 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.Kernel.Decode

end
-- ==== Proof.DecodeDataBits.lean ====
/-
  The pipeline's proof data for the decode kernel, and its body obligation.

  The region is entered after three stretches of host operations (the two graph-convolution layers); the
  latent matrix z is then in one HBM buffer, which the kernel reads through TWO windows: window 0 walks its
  2048-row blocks by the first grid coordinate, window 1 by the second. The output window 2 tiles the
  8192×8192 result in 2048×2048 tiles, one per grid point. Because the two input windows stand on the same
  buffer, each holds half of it (the left and the right half of the full share); the output array is held whole.

  After the body at point t each input tile is still the block of z it was fetched from, and the output tile is
  `tile` of the two blocks. The invariant between points is only the core's scoped buffers that are no staging
  buffer; nothing is owed to any other core.
-/
import proofs.«158562_j23356032156160_1_alg».proof.Proof.DecodeBodyBits
import Idealize.ShloMosaic.Lib.Pipeline.Frame
import Idealize.ShloMosaic.Lib.StableHlo.Run

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation of the host operations. -/
abbrev V₀ (c : Dev nD) : Valuation τ sig (Elt F) := fun b => m ((c : Dev nD), b)

/-- Core `c`'s buffers when the region is entered: the three stretches of host operations have run. A definition,
    never unfolded except by the few lemmas that read one buffer of it. -/
def Vin (c : Dev nD) : Valuation τ sig (Elt F) :=
  StableHlo.after hostOps0_2 (StableHlo.after hostOps0_1 (StableHlo.after hostOps0 (V₀ m c)))

/-- The same, read at a TensorCore reference. -/
abbrev V (c : Dev nD) (b : Ref sig .tc) : Buf (Elt F) ((c : Thread nD τ).loc b) := Vin m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The arrays as the region finds them; after the body each input tile at its block and the output tile at the
    product tile of the two blocks; the two readers of z each at half the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = tile (iblk m c 0 t) (iblk m c 1 t) := by dsimp only [dats]

/-- The first reader's tile holds its block of z at every point: where the point does not fetch it (the first
    grid coordinate has not moved) the block index is the previous point's. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)

/-- The second reader's tile likewise (it is fetched at every point). -/
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)

/-! ## The body obligation -/

/-- What the body is called with at point `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: both input tiles hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Decode

end
-- ==== Proof.DecodeRunBits.lean ====
/-
  The run of the whole program, for every float instance.

  @main is three stretches of host operations (the first graph-convolution layer, the relu, the second layer:
  they leave the latent matrix z in one HBM buffer), the decode kernel's region, and one last host operation
  that flattens the 8192×8192 result. The run is assembled from those five segments. Between segments the core
  holds all its unscoped buffers at a valuation: at launch the memory, then each stretch's results folded in.

  At the region's entry the two buffers the windows stand on are carved out of that set: the buffer of z is
  split into its left and right half shares, one for each of the two windows that read it, and the result's
  buffer is handed over whole. At the exit the halves of z, unchanged, are joined again, and the result's
  buffer comes back at what the write-backs of the sixteen grid points made of it; every other buffer went
  round the region untouched.

  The conclusion: every weakly fair execution terminates, faults nowhere, and ends with every unscoped buffer
  at the last valuation. From it follow that the argument arrays end as launched, and what the flattened
  result holds in terms of the array the region wrote.
-/
import proofs.«158562_j23356032156160_1_alg».proof.Proof.DecodeDataBits
import Idealize.ShloMosaic.Lib.Pipeline.Regions

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through every segment: the core owing nothing. -/
abbrev R (c : Dev nD) : sProp 𝕄 := iprop(∃ W, owes (c : Thread nD τ) (0 : CellTallies nD τ sig Unit) W)

/-! ## The two buffers the windows stand on -/

/-- The buffer of z (read by windows 0 and 1) and the buffer of the result (written by window 2). -/
def T : Finset (DevRef τ sig) := {Proc.devRef .tc main_v34, Proc.devRef .tc main_v35}

theorem T_sub : (T : Finset (DevRef τ sig)) ⊆ Pipeline.ucRefs τ sig := by
  intro b hb
  simp only [T, Finset.mem_insert, Finset.mem_singleton] at hb
  rcases hb with rfl | rfl <;>
    exact Finset.mem_filter.mpr ⟨StableHlo.devRef_mem_tcRefs _, by decide⟩

/-- Holding the two at a valuation is holding each. -/
theorem held_T (c : Dev nD) (W : Valuation τ sig (Elt F)) :
    (StableHlo.held (c : Thread nD τ) T W : sProp 𝕄)
      = iprop((((c : Dev nD), Proc.devRef .tc main_v34) ↦{fullShare} W (Proc.devRef .tc main_v34))
          ∗ (((c : Dev nD), Proc.devRef .tc main_v35) ↦{fullShare} W (Proc.devRef .tc main_v35))) := by
  unfold StableHlo.held T
  rw [bigSep_insert (by rw [Finset.mem_singleton]; exact StableHlo.devRef_ne_of_ne (by decide)), bigSep_singleton]
  rfl

/-- The pipeline's three arrays, written out: z at the left half, z at the right half, the result whole. -/
theorem arrays3 (c : Dev nD) (G : (w : Fin cfg0.W) → Buf (Elt F) ((cfg0.win w).arr.view.loc (c : Thread nD τ))) :
    ((dats m 0 c).arrays G : sProp 𝕄)
      = iprop((((c : Dev nD), Proc.devRef .tc main_v34) ↦{fullShare.left} G 0)
          ∗ (((c : Dev nD), Proc.devRef .tc main_v34) ↦{fullShare.right} G 1)
          ∗ (((c : Dev nD), Proc.devRef .tc main_v35) ↦{fullShare} G 2)) := by
  have h0 : (cfg0.win 0).arr.view.set = Finset.univ := (arr_whole0 0).set_eq_univ
  have h2 : (cfg0.win 2).arr.view.set = Finset.univ := (arr_whole0 2).set_eq_univ
  unfold Dat.arrays
  rw [bigSep_W0, h0, h2]
  rfl

/-! ## Entry and exit -/

/-- ENTRY: all unscoped buffers as the host stretches left them give the pipeline its arrays at their entry
    contents — z split in two halves — and the rest. -/
theorem entry_split (c : Dev nD) :
    (StableHlo.held (c : Thread nD τ) (Pipeline.ucRefs τ sig) (Vin m c) : sProp 𝕄)
      ⊢ iprop((dats m 0 c).arrays ((dats m 0 c).arrAt · 0) ∗ StableHlo.held (c : Thread nD τ) (Pipeline.ucRefs τ sig \ T) (Vin m c)) := by
  rw [StableHlo.held_sub_split (c : Thread nD τ) T_sub, held_T, arrays3]
  iintro ⟨⟨H34, H35⟩, Hrest⟩
  ihave H := (pointsTo_share (PosShare.mem_left_op_right fullShare)).1 $$ H34
  icases H with ⟨HL, HR⟩
  isplitr [Hrest]
  · isplitl [HL]; · iexact HL
    isplitl [HR]; · iexact HR
    iexact H35
  · iexact Hrest

/-- Core `c`'s buffers when the region is left: as it was entered, but for the result's buffer, which holds what
    the sixteen write-backs made of it. -/
def Vout (c : Dev nD) : Valuation τ sig (Elt F) :=
  Function.update (Vin m c) (Proc.devRef .tc main_v35) ((dats m 0 c).arrAt 2 cfg0.N)

theorem Vout_result (c : Dev nD) : Vout m c (Proc.devRef .tc main_v35) = (dats m 0 c).arrAt 2 cfg0.N := by
  unfold Vout; exact Function.update_self _ _ _

theorem Vout_of_ne (c : Dev nD) {b : DevRef τ sig} (hb : b ≠ Proc.devRef .tc main_v35) : Vout m c b = Vin m c b := by
  unfold Vout; exact Function.update_of_ne hb _ _

/-- EXIT: the arrays at their final contents and the rest make all unscoped buffers at the exit valuation: an
    input array is never written, so the two halves of z still agree and join. -/
theorem exit_join (c : Dev nD) :
    iprop((dats m 0 c).arrays ((dats m 0 c).arrAt · cfg0.N) ∗ StableHlo.held (c : Thread nD τ) (Pipeline.ucRefs τ sig \ T) (Vin m c))
      ⊢ (StableHlo.held (c : Thread nD τ) (Pipeline.ucRefs τ sig) (Vout m c) : sProp 𝕄) := by
  rw [StableHlo.held_sub_split (c : Thread nD τ) T_sub (Vout m c), held_T, arrays3,
    StableHlo.held_congr (c := (c : Thread nD τ)) (S := Pipeline.ucRefs τ sig \ T) (V := Vout m c) (V' := Vin m c)
      (fun b hb => Vout_of_ne m c fun e => (Finset.mem_sdiff.mp hb).2 (by rw [e]; simp [T])),
    Vout_result, Vout_of_ne m c (StableHlo.devRef_ne_of_ne (by decide)),
    (dats m 0 c).arrAt_in 0 rfl, (dats m 0 c).arrAt_in 1 rfl]
  iintro ⟨⟨HL, HR, H35⟩, Hrest⟩
  isplitr [Hrest]
  · isplitl [HL HR]
    · iapply (pointsTo_share (PosShare.mem_left_op_right fullShare)).2
      isplitl [HL]; · iexact HL
      iexact HR
    · iexact H35
  · iexact Hrest

/-- Core `c`'s buffers at the end: the result flattened. -/
def Vend (c : Dev nD) : Valuation τ sig (Elt F) := StableHlo.after hostOps1 (Vout m c)

/-! ## The segments -/

/-- The first graph-convolution layer. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The relu. -/
def seg1 : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    (by intro _ h; (repeat (cases h with | head => rfl | tail _ h => ?_)); exact nomatch h) (fun c => StableHlo.after hostOps0 (V₀ m c)) R

/-- The second layer: it leaves z. -/
def seg2 : Pipeline.HostSeg (Name := ℕ) (U := UR sig nD τ) (pcfgs (F := F)) defs₀ 𝒱₀ L lv :=
  Pipeline.HostSeg.ofOps _ _ _ _ _ (Pipeline.ucRefs τ sig) hostOps0_2 (fun op h => Pipeline.sub_ucRefs op ((List.forall_iff_forall_mem.mp hostOps0_2_sub) op h))
    (by intro _ h; (repeat (cases h with | head => rfl | tail _ h => ?_)); exact nomatch h) (fun c => StableHlo.after hostOps0_1 (StableHlo.after hostOps0 (V₀ m c))) R

/-- The flattening of the result. -/
def seg3 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vout m) R

-- the library's launch lemmas are stated over the pinned configuration: they unify only when unification may unfold plain definitions in a metavariable's type
set_option backward.isDefEq.respectTransparency.types false in
/-- THE REGION: the decided layout (the windows may share an array), no semaphore of the kernel's own, the body
    obligation; entered from what the second layer left, left with the result written. Nothing but the scoped rest
    enters the invariant; every buffer no window stands on goes round the region. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vin m c) ∗ R c)
  post c := iprop(StableHlo.held (c : Thread nD τ) (Pipeline.ucRefs τ sig) (Vout m c) ∗ R c)
  X _ := iprop(emp)
  Y _ := iprop(emp)
  Z c := StableHlo.held (c : Thread nD τ) (Pipeline.ucRefs τ sig \ T) (Vin m c)
  hentry c := by
    iintro ⟨⟨Hh, HO⟩, -, -⟩
    ihave H := (entry_split m c) $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [show (dats m 0 c).Φ (Fin.last cfg0.N) = Pipeline.scopedRest (Ix := Unit) (Name := ℕ) (U := UR sig nD τ) (Lvl := ℕ) (Val := Elt F) spec0 c from rfl,
      Pipeline.ownSems0_none]
    iintro Hr
    isplitr; · iempintro
    isplitr; · iempintro
    iexact Hr
  hexit c := by
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- @main as the list of its five segments. -/
abbrev segs : List (Pipeline.Seg (pcfgs (F := F)) adm (dats m) () defs₀ 𝒱₀ L lv) :=
  [.host (seg0 m), .host (seg1 m), .host (seg2 m), .region (reg0 m), .host (seg3 m)]

/-- The launch element: the pipeline library's at the staging cells. -/
def u₀ : UR sig nD τ := initOf (Pipeline.cells cfgs cellOf_inj) (Pipeline.launchToks cfgs cellOf_inj)

-- the launch theorem's implicit arguments are found by unifying its conclusion with this one
set_option backward.isDefEq.respectTransparency.types false in
/-- At the compiled mesh, for any float values, from any memory with zero counters: every weakly fair execution of
    @main on the TensorCores terminates, nothing faulting, and every final state has every unscoped buffer at the
    last valuation. -/
theorem run_all : θ_run defs (onTc (τ := τ) (main (F := F))) (s₀ m ρ)
    (fun r => ∀ c : Dev nD, ∀ b ∈ Pipeline.ucRefs τ sig, r.2.mem ((c : Dev nD), b) = Vend m c b) :=
  Pipeline.θ_run_regions_kit (pcfgs (F := F)) adm (dats m) () cellOf_inj EP defs₀ 𝒱₀ L lv m ρ main (segs m)
    (fun c Q => by
      have e : Pipeline.Seg.run (segs (F := F) m) = main (F := F) c := by
        rw [Pipeline.Seg.run_eq_chain, main_chain c]; rfl
      exact Entails.of_eq (by rw [e]))
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Vend m c b)
    (hfin := fun c s' => by
      unfold StableHlo.held
      iintro ⟨Hh, HSI⟩
      ihave Hr := (pointsTo_read_all (Pipeline.ucRefs τ sig) (fun b => ((c : Dev nD), b)) (Vend m c) s') $$ [Hh HSI]
      · isplitl [Hh] <;> iassumption
      icases Hr with ⟨%ha, HSI⟩
      imodintro
      isplitr; · ipureintro; exact ha
      iexact HSI)
    (hQ := fun _ h => h)

end Cert.Kernel.Decode

end
-- ==== Proof.DecodeFrameBits.lean ====
/-
  The frame of the program, for every float instance: every weakly fair execution terminates, faults nowhere, and
  leaves the eight argument arrays as they were launched.

  It is read off the run of the whole program (all unscoped buffers at the last valuation): no host operation
  writes an argument array — each writes only its own result buffer —, the region changes only the result's
  buffer, and so the last valuation at an argument is the launch memory there. The same run says what the
  flattened result is: the row-major flattening of the 8192×8192 array the region's write-backs produced.
-/
import proofs.«158562_j23356032156160_1_alg».proof.Proof.DecodeRunBits

set_option maxRecDepth 16384

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among the buffers the run accounts for. -/
theorem mem_uc (r : Ref sig .tc) (h : (Proc.devRef (τ := τ) .tc r).isScoped = false) : Proc.devRef .tc r ∈ Pipeline.ucRefs τ sig :=
  Finset.mem_filter.mpr ⟨StableHlo.devRef_mem_tcRefs _, by rw [h]; exact Bool.false_ne_true⟩

/-- Argument 0 reaches the end as launched: nothing writes it. -/
theorem Vend_arg0 (c : Dev nD) : Vend m c (Proc.devRef .tc main_arg0) = m ((c.tc : Thread nD τ).loc main_arg0) := by
  unfold Vend
  rw [show StableHlo.after hostOps1 (Vout m c) (Proc.devRef .tc main_arg0) = Vout m c (Proc.devRef .tc main_arg0) from by after_results_simp,
    Vout_of_ne m c (StableHlo.devRef_ne_of_ne (by decide))]
  unfold Vin
  after_results_simp
/-- Argument 1 reaches the end as launched: nothing writes it. -/
theorem Vend_arg1 (c : Dev nD) : Vend m c (Proc.devRef .tc main_arg1) = m ((c.tc : Thread nD τ).loc main_arg1) := by
  unfold Vend
  rw [show StableHlo.after hostOps1 (Vout m c) (Proc.devRef .tc main_arg1) = Vout m c (Proc.devRef .tc main_arg1) from by after_results_simp,
    Vout_of_ne m c (StableHlo.devRef_ne_of_ne (by decide))]
  unfold Vin
  after_results_simp
/-- Argument 2 reaches the end as launched: nothing writes it. -/
theorem Vend_arg2 (c : Dev nD) : Vend m c (Proc.devRef .tc main_arg2) = m ((c.tc : Thread nD τ).loc main_arg2) := by
  unfold Vend
  rw [show StableHlo.after hostOps1 (Vout m c) (Proc.devRef .tc main_arg2) = Vout m c (Proc.devRef .tc main_arg2) from by after_results_simp,
    Vout_of_ne m c (StableHlo.devRef_ne_of_ne (by decide))]
  unfold Vin
  after_results_simp
/-- Argument 3 reaches the end as launched: nothing writes it. -/
theorem Vend_arg3 (c : Dev nD) : Vend m c (Proc.devRef .tc main_arg3) = m ((c.tc : Thread nD τ).loc main_arg3) := by
  unfold Vend
  rw [show StableHlo.after hostOps1 (Vout m c) (Proc.devRef .tc main_arg3) = Vout m c (Proc.devRef .tc main_arg3) from by after_results_simp,
    Vout_of_ne m c (StableHlo.devRef_ne_of_ne (by decide))]
  unfold Vin
  after_results_simp
/-- Argument 4 reaches the end as launched: nothing writes it. -/
theorem Vend_arg4 (c : Dev nD) : Vend m c (Proc.devRef .tc main_arg4) = m ((c.tc : Thread nD τ).loc main_arg4) := by
  unfold Vend
  rw [show StableHlo.after hostOps1 (Vout m c) (Proc.devRef .tc main_arg4) = Vout m c (Proc.devRef .tc main_arg4) from by after_results_simp,
    Vout_of_ne m c (StableHlo.devRef_ne_of_ne (by decide))]
  unfold Vin
  after_results_simp
/-- Argument 5 reaches the end as launched: nothing writes it. -/
theorem Vend_arg5 (c : Dev nD) : Vend m c (Proc.devRef .tc main_arg5) = m ((c.tc : Thread nD τ).loc main_arg5) := by
  unfold Vend
  rw [show StableHlo.after hostOps1 (Vout m c) (Proc.devRef .tc main_arg5) = Vout m c (Proc.devRef .tc main_arg5) from by after_results_simp,
    Vout_of_ne m c (StableHlo.devRef_ne_of_ne (by decide))]
  unfold Vin
  after_results_simp
/-- Argument 6 reaches the end as launched: nothing writes it. -/
theorem Vend_arg6 (c : Dev nD) : Vend m c (Proc.devRef .tc main_arg6) = m ((c.tc : Thread nD τ).loc main_arg6) := by
  unfold Vend
  rw [show StableHlo.after hostOps1 (Vout m c) (Proc.devRef .tc main_arg6) = Vout m c (Proc.devRef .tc main_arg6) from by after_results_simp,
    Vout_of_ne m c (StableHlo.devRef_ne_of_ne (by decide))]
  unfold Vin
  after_results_simp
/-- Argument 7 reaches the end as launched: nothing writes it. -/
theorem Vend_arg7 (c : Dev nD) : Vend m c (Proc.devRef .tc main_arg7) = m ((c.tc : Thread nD τ).loc main_arg7) := by
  unfold Vend
  rw [show StableHlo.after hostOps1 (Vout m c) (Proc.devRef .tc main_arg7) = Vout m c (Proc.devRef .tc main_arg7) from by after_results_simp,
    Vout_of_ne m c (StableHlo.devRef_ne_of_ne (by decide))]
  unfold Vin
  after_results_simp

/-- The flattened result is the flattening of what the region left in the result's buffer. -/
theorem Vend_result (c : Dev nD) :
    Vend m c (Proc.devRef .tc main_v36) = shapeCast S67108864 ((dats m 0 c).arrAt 2 cfg0.N) shapeCasts_S8192x8192_S67108864 := by
  unfold Vend
  rw [← Vout_result m c]
  after_results_simp
  rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 rfl)).trans (Vend_arg0 m c),
      (h c _ (mem_uc main_arg1 rfl)).trans (Vend_arg1 m c),
      (h c _ (mem_uc main_arg2 rfl)).trans (Vend_arg2 m c),
      (h c _ (mem_uc main_arg3 rfl)).trans (Vend_arg3 m c),
      (h c _ (mem_uc main_arg4 rfl)).trans (Vend_arg4 m c),
      (h c _ (mem_uc main_arg5 rfl)).trans (Vend_arg5 m c),
      (h c _ (mem_uc main_arg6 rfl)).trans (Vend_arg6 m c),
      (h c _ (mem_uc main_arg7 rfl)).trans (Vend_arg7 m c)⟩)
    (run_all m ρ)

end Cert.Kernel.Decode

end
-- ==== Proof.DecodeBodyIdeal.lean ====
/-
  The decode tile. One grid point of the kernel reads a 2048×7 block of rows of the latent matrix z through its
  first window, another 2048×7 block of rows of the same matrix through its second window, and overwrites the
  whole 2048×2048 output tile with the product of the first block and the transpose of the second, accumulated
  from zero. This module states what the output tile holds after the body as a function of the two blocks
  (the single store, read as a covering piece) and proves the body's triple: started with the two input tiles
  at given contents and the output tile at anything, the body ends with the inputs as they were and the output
  tile at that function of them. The triple is for every float instance.
-/
import proofs.«158562_j23356032156160_1_alg».proof.Proof.Gen.KernelIdeal.Launch
import proofs.«158562_j23356032156160_1_alg».proof.Proof.Gen.KernelIdeal.Skeleton
import proofs.«158562_j23356032156160_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 2048×7 input tile and the whole 2048×2048 output tile, as the body's accesses spell them. -/
abbrev rIn : Rect S2048x7 := Rect.unit (s := S2048x7) ![0, 0] S2048x7.size inb_S2048x7_S2048x7_0_0
abbrev rOut : Rect S2048x2048 := Rect.unit (s := S2048x2048) ![0, 0] S2048x2048.size inb_S2048x2048_S2048x2048_0_0

/-- What the output tile holds after the body, from the two input tiles: its one store, which covers it. -/
def tile (x0 x1 : Vec F S2048x7 .f32) : Vec F S2048x2048 .f32 :=
  View.canon [⟨rOut, k0_pay1 (View.ld x0 rIn) (View.ld x1 rIn)⟩]

/-- The store's rectangle is the whole tile. -/
theorem tile_cover (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging tiles: the inputs at contents `x0`, `x1`, the output at anything; it ends with the
    inputs unchanged and the output at `tile x0 x1`. (The body also loads the output tile before overwriting
    it; the value loaded is never used.) -/
theorem sound_kernel (c : Dev nD) (E : Set ℕ) (i : grid0.Coords)
    (arg2 : Memref sig .tc .vmem S2048x7 .f32) (harg2 : arg2.IsWhole)
    (arg3 : Memref sig .tc .vmem S2048x7 .f32) (harg3 : arg3.IsWhole)
    (arg4 : Memref sig .tc .vmem S2048x2048 .f32) (harg4 : arg4.IsWhole)
    (x0 x1 : Vec F S2048x7 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.KernelIdeal.Decode

end
-- ==== Proof.DecodeDataIdeal.lean ====
/-
  The pipeline's proof data for the decode kernel, and its body obligation.

  The region is entered after three stretches of host operations (the two graph-convolution layers); the
  latent matrix z is then in one HBM buffer, which the kernel reads through TWO windows: window 0 walks its
  2048-row blocks by the first grid coordinate, window 1 by the second. The output window 2 tiles the
  8192×8192 result in 2048×2048 tiles, one per grid point. Because the two input windows stand on the same
  buffer, each holds half of it (the left and the right half of the full share); the output array is held whole.

  After the body at point t each input tile is still the block of z it was fetched from, and the output tile is
  `tile` of the two blocks. The invariant between points is only the core's scoped buffers that are no staging
  buffer; nothing is owed to any other core.
-/
import proofs.«158562_j23356032156160_1_alg».proof.Proof.DecodeBodyIdeal
import Idealize.ShloMosaic.Lib.Pipeline.Frame
import Idealize.ShloMosaic.Lib.StableHlo.Run

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation of the host operations. -/
abbrev V₀ (c : Dev nD) : Valuation τ sig (Elt F) := fun b => m ((c : Dev nD), b)

/-- Core `c`'s buffers when the region is entered: the three stretches of host operations have run. A definition,
    never unfolded except by the few lemmas that read one buffer of it. -/
def Vin (c : Dev nD) : Valuation τ sig (Elt F) :=
  StableHlo.after hostOps0_2 (StableHlo.after hostOps0_1 (StableHlo.after hostOps0 (V₀ m c)))

/-- The same, read at a TensorCore reference. -/
abbrev V (c : Dev nD) (b : Ref sig .tc) : Buf (Elt F) ((c : Thread nD τ).loc b) := Vin m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The arrays as the region finds them; after the body each input tile at its block and the output tile at the
    product tile of the two blocks; the two readers of z each at half the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = tile (iblk m c 0 t) (iblk m c 1 t) := by dsimp only [dats]

/-- The first reader's tile holds its block of z at every point: where the point does not fetch it (the first
    grid coordinate has not moved) the block index is the previous point's. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)

/-- The second reader's tile likewise (it is fetched at every point). -/
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)

/-! ## The body obligation -/

/-- What the body is called with at point `t`, the three windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: both input tiles hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).Φ t.succ = (dats m 0 c).Φ t.castSucc from rfl,
    show (dats m 0 c).owesAt () t.succ = (dats m 0 c).owesAt () t.castSucc from rfl,
    after_in0, after_in1, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Decode

end
-- ==== Proof.DecodeRunIdeal.lean ====
/-
  The run of the whole program, for every float instance.

  @main is three stretches of host operations (the first graph-convolution layer, the relu, the second layer:
  they leave the latent matrix z in one HBM buffer), the decode kernel's region, and one last host operation
  that flattens the 8192×8192 result. The run is assembled from those five segments. Between segments the core
  holds all its unscoped buffers at a valuation: at launch the memory, then each stretch's results folded in.

  At the region's entry the two buffers the windows stand on are carved out of that set: the buffer of z is
  split into its left and right half shares, one for each of the two windows that read it, and the result's
  buffer is handed over whole. At the exit the halves of z, unchanged, are joined again, and the result's
  buffer comes back at what the write-backs of the sixteen grid points made of it; every other buffer went
  round the region untouched.

  The conclusion: every weakly fair execution terminates, faults nowhere, and ends with every unscoped buffer
  at the last valuation. From it follow that the argument arrays end as launched, and what the flattened
  result holds in terms of the array the region wrote.
-/
import proofs.«158562_j23356032156160_1_alg».proof.Proof.DecodeDataIdeal
import Idealize.ShloMosaic.Lib.Pipeline.Regions

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through every segment: the core owing nothing. -/
abbrev R (c : Dev nD) : sProp 𝕄 := iprop(∃ W, owes (c : Thread nD τ) (0 : CellTallies nD τ sig Unit) W)

/-! ## The two buffers the windows stand on -/

/-- The buffer of z (read by windows 0 and 1) and the buffer of the result (written by window 2). -/
def T : Finset (DevRef τ sig) := {Proc.devRef .tc main_v34, Proc.devRef .tc main_v35}

theorem T_sub : (T : Finset (DevRef τ sig)) ⊆ Pipeline.ucRefs τ sig := by
  intro b hb
  simp only [T, Finset.mem_insert, Finset.mem_singleton] at hb
  rcases hb with rfl | rfl <;>
    exact Finset.mem_filter.mpr ⟨StableHlo.devRef_mem_tcRefs _, by decide⟩

/-- Holding the two at a valuation is holding each. -/
theorem held_T (c : Dev nD) (W : Valuation τ sig (Elt F)) :
    (StableHlo.held (c : Thread nD τ) T W : sProp 𝕄)
      = iprop((((c : Dev nD), Proc.devRef .tc main_v34) ↦{fullShare} W (Proc.devRef .tc main_v34))
          ∗ (((c : Dev nD), Proc.devRef .tc main_v35) ↦{fullShare} W (Proc.devRef .tc main_v35))) := by
  unfold StableHlo.held T
  rw [bigSep_insert (by rw [Finset.mem_singleton]; exact StableHlo.devRef_ne_of_ne (by decide)), bigSep_singleton]
  rfl

/-- The pipeline's three arrays, written out: z at the left half, z at the right half, the result whole. -/
theorem arrays3 (c : Dev nD) (G : (w : Fin cfg0.W) → Buf (Elt F) ((cfg0.win w).arr.view.loc (c : Thread nD τ))) :
    ((dats m 0 c).arrays G : sProp 𝕄)
      = iprop((((c : Dev nD), Proc.devRef .tc main_v34) ↦{fullShare.left} G 0)
          ∗ (((c : Dev nD), Proc.devRef .tc main_v34) ↦{fullShare.right} G 1)
          ∗ (((c : Dev nD), Proc.devRef .tc main_v35) ↦{fullShare} G 2)) := by
  have h0 : (cfg0.win 0).arr.view.set = Finset.univ := (arr_whole0 0).set_eq_univ
  have h2 : (cfg0.win 2).arr.view.set = Finset.univ := (arr_whole0 2).set_eq_univ
  unfold Dat.arrays
  rw [bigSep_W0, h0, h2]
  rfl

/-! ## Entry and exit -/

/-- ENTRY: all unscoped buffers as the host stretches left them give the pipeline its arrays at their entry
    contents — z split in two halves — and the rest. -/
theorem entry_split (c : Dev nD) :
    (StableHlo.held (c : Thread nD τ) (Pipeline.ucRefs τ sig) (Vin m c) : sProp 𝕄)
      ⊢ iprop((dats m 0 c).arrays ((dats m 0 c).arrAt · 0) ∗ StableHlo.held (c : Thread nD τ) (Pipeline.ucRefs τ sig \ T) (Vin m c)) := by
  rw [StableHlo.held_sub_split (c : Thread nD τ) T_sub, held_T, arrays3]
  iintro ⟨⟨H34, H35⟩, Hrest⟩
  ihave H := (pointsTo_share (PosShare.mem_left_op_right fullShare)).1 $$ H34
  icases H with ⟨HL, HR⟩
  isplitr [Hrest]
  · isplitl [HL]; · iexact HL
    isplitl [HR]; · iexact HR
    iexact H35
  · iexact Hrest

/-- Core `c`'s buffers when the region is left: as it was entered, but for the result's buffer, which holds what
    the sixteen write-backs made of it. -/
def Vout (c : Dev nD) : Valuation τ sig (Elt F) :=
  Function.update (Vin m c) (Proc.devRef .tc main_v35) ((dats m 0 c).arrAt 2 cfg0.N)

theorem Vout_result (c : Dev nD) : Vout m c (Proc.devRef .tc main_v35) = (dats m 0 c).arrAt 2 cfg0.N := by
  unfold Vout; exact Function.update_self _ _ _

theorem Vout_of_ne (c : Dev nD) {b : DevRef τ sig} (hb : b ≠ Proc.devRef .tc main_v35) : Vout m c b = Vin m c b := by
  unfold Vout; exact Function.update_of_ne hb _ _

/-- EXIT: the arrays at their final contents and the rest make all unscoped buffers at the exit valuation: an
    input array is never written, so the two halves of z still agree and join. -/
theorem exit_join (c : Dev nD) :
    iprop((dats m 0 c).arrays ((dats m 0 c).arrAt · cfg0.N) ∗ StableHlo.held (c : Thread nD τ) (Pipeline.ucRefs τ sig \ T) (Vin m c))
      ⊢ (StableHlo.held (c : Thread nD τ) (Pipeline.ucRefs τ sig) (Vout m c) : sProp 𝕄) := by
  rw [StableHlo.held_sub_split (c : Thread nD τ) T_sub (Vout m c), held_T, arrays3,
    StableHlo.held_congr (c := (c : Thread nD τ)) (S := Pipeline.ucRefs τ sig \ T) (V := Vout m c) (V' := Vin m c)
      (fun b hb => Vout_of_ne m c fun e => (Finset.mem_sdiff.mp hb).2 (by rw [e]; simp [T])),
    Vout_result, Vout_of_ne m c (StableHlo.devRef_ne_of_ne (by decide)),
    (dats m 0 c).arrAt_in 0 rfl, (dats m 0 c).arrAt_in 1 rfl]
  iintro ⟨⟨HL, HR, H35⟩, Hrest⟩
  isplitr [Hrest]
  · isplitl [HL HR]
    · iapply (pointsTo_share (PosShare.mem_left_op_right fullShare)).2
      isplitl [HL]; · iexact HL
      iexact HR
    · iexact H35
  · iexact Hrest

/-- Core `c`'s buffers at the end: the result flattened. -/
def Vend (c : Dev nD) : Valuation τ sig (Elt F) := StableHlo.after hostOps1 (Vout m c)

/-! ## The segments -/

/-- The first graph-convolution layer. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The relu. -/
def seg1 : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    (by intro _ h; (repeat (cases h with | head => rfl | tail _ h => ?_)); exact nomatch h) (fun c => StableHlo.after hostOps0 (V₀ m c)) R

/-- The second layer: it leaves z. -/
def seg2 : Pipeline.HostSeg (Name := ℕ) (U := UR sig nD τ) (pcfgs (F := F)) defs₀ 𝒱₀ L lv :=
  Pipeline.HostSeg.ofOps _ _ _ _ _ (Pipeline.ucRefs τ sig) hostOps0_2 (fun op h => Pipeline.sub_ucRefs op ((List.forall_iff_forall_mem.mp hostOps0_2_sub) op h))
    (by intro _ h; (repeat (cases h with | head => rfl | tail _ h => ?_)); exact nomatch h) (fun c => StableHlo.after hostOps0_1 (StableHlo.after hostOps0 (V₀ m c))) R

/-- The flattening of the result. -/
def seg3 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vout m) R

-- the library's launch lemmas are stated over the pinned configuration: they unify only when unification may unfold plain definitions in a metavariable's type
set_option backward.isDefEq.respectTransparency.types false in
/-- THE REGION: the decided layout (the windows may share an array), no semaphore of the kernel's own, the body
    obligation; entered from what the second layer left, left with the result written. Nothing but the scoped rest
    enters the invariant; every buffer no window stands on goes round the region. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vin m c) ∗ R c)
  post c := iprop(StableHlo.held (c : Thread nD τ) (Pipeline.ucRefs τ sig) (Vout m c) ∗ R c)
  X _ := iprop(emp)
  Y _ := iprop(emp)
  Z c := StableHlo.held (c : Thread nD τ) (Pipeline.ucRefs τ sig \ T) (Vin m c)
  hentry c := by
    iintro ⟨⟨Hh, HO⟩, -, -⟩
    ihave H := (entry_split m c) $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [show (dats m 0 c).Φ (Fin.last cfg0.N) = Pipeline.scopedRest (Ix := Unit) (Name := ℕ) (U := UR sig nD τ) (Lvl := ℕ) (Val := Elt F) spec0 c from rfl,
      Pipeline.ownSems0_none]
    iintro Hr
    isplitr; · iempintro
    isplitr; · iempintro
    iexact Hr
  hexit c := by
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- @main as the list of its five segments. -/
abbrev segs : List (Pipeline.Seg (pcfgs (F := F)) adm (dats m) () defs₀ 𝒱₀ L lv) :=
  [.host (seg0 m), .host (seg1 m), .host (seg2 m), .region (reg0 m), .host (seg3 m)]

/-- The launch element: the pipeline library's at the staging cells. -/
def u₀ : UR sig nD τ := initOf (Pipeline.cells cfgs cellOf_inj) (Pipeline.launchToks cfgs cellOf_inj)

-- the launch theorem's implicit arguments are found by unifying its conclusion with this one
set_option backward.isDefEq.respectTransparency.types false in
/-- At the compiled mesh, for any float values, from any memory with zero counters: every weakly fair execution of
    @main on the TensorCores terminates, nothing faulting, and every final state has every unscoped buffer at the
    last valuation. -/
theorem run_all : θ_run defs (onTc (τ := τ) (main (F := F))) (s₀ m ρ)
    (fun r => ∀ c : Dev nD, ∀ b ∈ Pipeline.ucRefs τ sig, r.2.mem ((c : Dev nD), b) = Vend m c b) :=
  Pipeline.θ_run_regions_kit (pcfgs (F := F)) adm (dats m) () cellOf_inj EP defs₀ 𝒱₀ L lv m ρ main (segs m)
    (fun c Q => by
      have e : Pipeline.Seg.run (segs (F := F) m) = main (F := F) c := by
        rw [Pipeline.Seg.run_eq_chain, main_chain c]; rfl
      exact Entails.of_eq (by rw [e]))
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Vend m c b)
    (hfin := fun c s' => by
      unfold StableHlo.held
      iintro ⟨Hh, HSI⟩
      ihave Hr := (pointsTo_read_all (Pipeline.ucRefs τ sig) (fun b => ((c : Dev nD), b)) (Vend m c) s') $$ [Hh HSI]
      · isplitl [Hh] <;> iassumption
      icases Hr with ⟨%ha, HSI⟩
      imodintro
      isplitr; · ipureintro; exact ha
      iexact HSI)
    (hQ := fun _ h => h)

end Cert.KernelIdeal.Decode

end
-- ==== Proof.DecodeFrameIdeal.lean ====
/-
  The frame of the program, for every float instance: every weakly fair execution terminates, faults nowhere, and
  leaves the eight argument arrays as they were launched.

  It is read off the run of the whole program (all unscoped buffers at the last valuation): no host operation
  writes an argument array — each writes only its own result buffer —, the region changes only the result's
  buffer, and so the last valuation at an argument is the launch memory there. The same run says what the
  flattened result is: the row-major flattening of the 8192×8192 array the region's write-backs produced.
-/
import proofs.«158562_j23356032156160_1_alg».proof.Proof.DecodeRunIdeal

set_option maxRecDepth 16384

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among the buffers the run accounts for. -/
theorem mem_uc (r : Ref sig .tc) (h : (Proc.devRef (τ := τ) .tc r).isScoped = false) : Proc.devRef .tc r ∈ Pipeline.ucRefs τ sig :=
  Finset.mem_filter.mpr ⟨StableHlo.devRef_mem_tcRefs _, by rw [h]; exact Bool.false_ne_true⟩

/-- Argument 0 reaches the end as launched: nothing writes it. -/
theorem Vend_arg0 (c : Dev nD) : Vend m c (Proc.devRef .tc main_arg0) = m ((c.tc : Thread nD τ).loc main_arg0) := by
  unfold Vend
  rw [show StableHlo.after hostOps1 (Vout m c) (Proc.devRef .tc main_arg0) = Vout m c (Proc.devRef .tc main_arg0) from by after_results_simp,
    Vout_of_ne m c (StableHlo.devRef_ne_of_ne (by decide))]
  unfold Vin
  after_results_simp
/-- Argument 1 reaches the end as launched: nothing writes it. -/
theorem Vend_arg1 (c : Dev nD) : Vend m c (Proc.devRef .tc main_arg1) = m ((c.tc : Thread nD τ).loc main_arg1) := by
  unfold Vend
  rw [show StableHlo.after hostOps1 (Vout m c) (Proc.devRef .tc main_arg1) = Vout m c (Proc.devRef .tc main_arg1) from by after_results_simp,
    Vout_of_ne m c (StableHlo.devRef_ne_of_ne (by decide))]
  unfold Vin
  after_results_simp
/-- Argument 2 reaches the end as launched: nothing writes it. -/
theorem Vend_arg2 (c : Dev nD) : Vend m c (Proc.devRef .tc main_arg2) = m ((c.tc : Thread nD τ).loc main_arg2) := by
  unfold Vend
  rw [show StableHlo.after hostOps1 (Vout m c) (Proc.devRef .tc main_arg2) = Vout m c (Proc.devRef .tc main_arg2) from by after_results_simp,
    Vout_of_ne m c (StableHlo.devRef_ne_of_ne (by decide))]
  unfold Vin
  after_results_simp
/-- Argument 3 reaches the end as launched: nothing writes it. -/
theorem Vend_arg3 (c : Dev nD) : Vend m c (Proc.devRef .tc main_arg3) = m ((c.tc : Thread nD τ).loc main_arg3) := by
  unfold Vend
  rw [show StableHlo.after hostOps1 (Vout m c) (Proc.devRef .tc main_arg3) = Vout m c (Proc.devRef .tc main_arg3) from by after_results_simp,
    Vout_of_ne m c (StableHlo.devRef_ne_of_ne (by decide))]
  unfold Vin
  after_results_simp
/-- Argument 4 reaches the end as launched: nothing writes it. -/
theorem Vend_arg4 (c : Dev nD) : Vend m c (Proc.devRef .tc main_arg4) = m ((c.tc : Thread nD τ).loc main_arg4) := by
  unfold Vend
  rw [show StableHlo.after hostOps1 (Vout m c) (Proc.devRef .tc main_arg4) = Vout m c (Proc.devRef .tc main_arg4) from by after_results_simp,
    Vout_of_ne m c (StableHlo.devRef_ne_of_ne (by decide))]
  unfold Vin
  after_results_simp
/-- Argument 5 reaches the end as launched: nothing writes it. -/
theorem Vend_arg5 (c : Dev nD) : Vend m c (Proc.devRef .tc main_arg5) = m ((c.tc : Thread nD τ).loc main_arg5) := by
  unfold Vend
  rw [show StableHlo.after hostOps1 (Vout m c) (Proc.devRef .tc main_arg5) = Vout m c (Proc.devRef .tc main_arg5) from by after_results_simp,
    Vout_of_ne m c (StableHlo.devRef_ne_of_ne (by decide))]
  unfold Vin
  after_results_simp
/-- Argument 6 reaches the end as launched: nothing writes it. -/
theorem Vend_arg6 (c : Dev nD) : Vend m c (Proc.devRef .tc main_arg6) = m ((c.tc : Thread nD τ).loc main_arg6) := by
  unfold Vend
  rw [show StableHlo.after hostOps1 (Vout m c) (Proc.devRef .tc main_arg6) = Vout m c (Proc.devRef .tc main_arg6) from by after_results_simp,
    Vout_of_ne m c (StableHlo.devRef_ne_of_ne (by decide))]
  unfold Vin
  after_results_simp
/-- Argument 7 reaches the end as launched: nothing writes it. -/
theorem Vend_arg7 (c : Dev nD) : Vend m c (Proc.devRef .tc main_arg7) = m ((c.tc : Thread nD τ).loc main_arg7) := by
  unfold Vend
  rw [show StableHlo.after hostOps1 (Vout m c) (Proc.devRef .tc main_arg7) = Vout m c (Proc.devRef .tc main_arg7) from by after_results_simp,
    Vout_of_ne m c (StableHlo.devRef_ne_of_ne (by decide))]
  unfold Vin
  after_results_simp

/-- The flattened result is the flattening of what the region left in the result's buffer. -/
theorem Vend_result (c : Dev nD) :
    Vend m c (Proc.devRef .tc main_v36) = shapeCast S67108864 ((dats m 0 c).arrAt 2 cfg0.N) shapeCasts_S8192x8192_S67108864 := by
  unfold Vend
  rw [← Vout_result m c]
  after_results_simp
  rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 rfl)).trans (Vend_arg0 m c),
      (h c _ (mem_uc main_arg1 rfl)).trans (Vend_arg1 m c),
      (h c _ (mem_uc main_arg2 rfl)).trans (Vend_arg2 m c),
      (h c _ (mem_uc main_arg3 rfl)).trans (Vend_arg3 m c),
      (h c _ (mem_uc main_arg4 rfl)).trans (Vend_arg4 m c),
      (h c _ (mem_uc main_arg5 rfl)).trans (Vend_arg5 m c),
      (h c _ (mem_uc main_arg6 rfl)).trans (Vend_arg6 m c),
      (h c _ (mem_uc main_arg7 rfl)).trans (Vend_arg7 m c)⟩)
    (run_all m ρ)

end Cert.KernelIdeal.Decode

end
-- ==== Proof.DecodeSpec.lean ====
/-
  The specification of the decode: the Gram matrix of the rows of the latent matrix.

  For z an 8192×7 array of extended reals, `gram z` is the 8192×8192 array whose entry (i, j) is the sum over the
  seven columns k of z(i, k) · z(j, k) — the product of z with its own transpose. Both programs compute it: the
  reference as one matrix product of z with its transpose, the kernel tile by tile.
-/
import Idealize.ShloMosaic.PureOps.Ideal
import Idealize.ShloMosaic.Lib.ValueIdx

noncomputable section

namespace Cert.DecodeSpec

open Idealize.ShloMosaic Idealize.ShloMosaic.ValueIdx

/-- Entry (i, j) of z·zᵀ: the sum over k of z(i, k) · z(j, k). -/
def gram (z : (⟨2, ![8192, 7]⟩ : Shape).Idx → EReal) : (⟨2, ![8192, 8192]⟩ : Shape).Idx → EReal :=
  fun i => ∑ k : Fin 7, z (ix2 (⟨(i 0).val, idx2_lt0 i⟩ : Fin 8192) k) * z (ix2 (⟨(i 1).val, idx2_lt1 i⟩ : Fin 8192) k)

end Cert.DecodeSpec

end
-- ==== Proof.DecodeValue.lean ====
/-
  What the region leaves in the result's buffer, at the ideal instance: the Gram matrix of z.

  Entry (r, s) of the output tile after the body is the sum over the seven columns k of the first input tile at
  (r, k) times the second at (s, k): the tile is a matrix product accumulated from zero, the second factor the
  transpose of the second input tile, and at the ideal instance such a product is that plain sum.

  At grid point t = (a, b) the first input tile is rows 2048·a … of z and the second rows 2048·b …, and the
  output tile is written back at rows 2048·a …, columns 2048·b … of the result; so what point t writes back is
  the (a, b) block of the Gram matrix of z. The sixteen blocks tile the 8192×8192 result, so after the last point
  the result's buffer holds the Gram matrix itself.
-/
import proofs.«158562_j23356032156160_1_alg».proof.Proof.DecodeDataIdeal
import proofs.«158562_j23356032156160_1_alg».proof.Proof.DecodeSpec
import Idealize.ShloMosaic.PureOps.Ideal.Laws
import Idealize.ShloMosaic.Lib.Pipeline.Value
import Idealize.ShloMosaic.Lib.ValueIdx

set_option maxRecDepth 16384

noncomputable section

namespace Cert.KernelIdeal.Decode

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.DecodeSpec (gram)

/-! ## The tile at an index -/

theorem hz : (![0, 0] : Fin 2 → Nat) = fun _ => 0 := funext fun a => by fin_cases a <;> rfl

/-- The left operand's index at output (r, s) and contraction k is (r, k). -/
theorem lhs_0 (i : S2048x2048.Idx) (q : dot_S2048x7_S7x2048_S2048x2048_1_0_0_1_n_n.contr.Idx) :
    (dot_S2048x7_S7x2048_S2048x2048_1_0_0_1_n_n.lhsIdx i q 0).val = (i 0).val := by
  unfold DotDims.lhsIdx
  rw [dif_neg (show ¬(0 : Fin S2048x7.rank) ∈ dot_S2048x7_S7x2048_S2048x2048_1_0_0_1_n_n.lhsBatch by decide), dif_pos (show (0 : Fin S2048x7.rank) ∈ dot_S2048x7_S7x2048_S2048x2048_1_0_0_1_n_n.lhsNonContracting by decide)]
  rfl
theorem lhs_1 (i : S2048x2048.Idx) (q : dot_S2048x7_S7x2048_S2048x2048_1_0_0_1_n_n.contr.Idx) :
    (dot_S2048x7_S7x2048_S2048x2048_1_0_0_1_n_n.lhsIdx i q 1).val = (q ⟨0, by decide⟩).val :=
  dot_S2048x7_S7x2048_S2048x2048_1_0_0_1_n_n.lhsIdx_val_of_single rfl i q
/-- The right operand's index there is (k, s). -/
theorem rhs_0 (i : S2048x2048.Idx) (q : dot_S2048x7_S7x2048_S2048x2048_1_0_0_1_n_n.contr.Idx) :
    (dot_S2048x7_S7x2048_S2048x2048_1_0_0_1_n_n.rhsIdx i q 0).val = (q ⟨0, by decide⟩).val :=
  dot_S2048x7_S7x2048_S2048x2048_1_0_0_1_n_n.rhsIdx_val_of_single rfl i q
theorem rhs_1 (i : S2048x2048.Idx) (q : dot_S2048x7_S7x2048_S2048x2048_1_0_0_1_n_n.contr.Idx) :
    (dot_S2048x7_S7x2048_S2048x2048_1_0_0_1_n_n.rhsIdx i q 1).val = (i 1).val := by
  unfold DotDims.rhsIdx
  rw [dif_neg (show ¬(1 : Fin S7x2048.rank) ∈ dot_S2048x7_S7x2048_S2048x2048_1_0_0_1_n_n.rhsBatch by decide), dif_pos (show (1 : Fin S7x2048.rank) ∈ dot_S2048x7_S7x2048_S2048x2048_1_0_0_1_n_n.rhsNonContracting by decide)]
  rfl

/-- Entry (r, s) of the product tile: the sum over k of x0(r, k) · x1(s, k). -/
theorem tile_apply (x0 x1 : Vec Ideal S2048x7 .f32) (r s : Fin 2048) :
    tile (F := Ideal) x0 x1 (ix2 r s) = ∑ k : Fin 7, x0 (ix2 r k) * x1 (ix2 s k) := by
  unfold tile
  rw [View.canon_unit_zero hz]
  simp only [View.ld_unit_zero (S := S2048x7) hz]
  unfold k0_pay1
  rw [shapeCast_self, shapeCast_self]
  refine (Ideal.matmul_constant_zero_apply dot_S2048x7_S7x2048_S2048x2048_1_0_0_1_n_n none x0 (transpose S7x2048 [1, 0] x1 transposes_S2048x7_p1_0_S7x2048) (ix2 r s)).trans ?_
  rw [← Equiv.sum_comp (contrEquiv1 dot_S2048x7_S7x2048_S2048x2048_1_0_0_1_n_n 7 rfl rfl).symm]
  refine Finset.sum_congr rfl fun k _ => ?_
  have hk := contrEquiv1_symm_val dot_S2048x7_S7x2048_S2048x2048_1_0_0_1_n_n 7 rfl rfl k
  have el : dot_S2048x7_S7x2048_S2048x2048_1_0_0_1_n_n.lhsIdx (ix2 r s) ((contrEquiv1 dot_S2048x7_S7x2048_S2048x2048_1_0_0_1_n_n 7 rfl rfl).symm k) = ix2 r k := funext fun a => Fin.ext (by
    match a with
    | ⟨0, _⟩ => exact lhs_0 _ _
    | ⟨1, _⟩ => exact (lhs_1 _ _).trans hk)
  have er : transpose S7x2048 [1, 0] x1 transposes_S2048x7_p1_0_S7x2048 (dot_S2048x7_S7x2048_S2048x2048_1_0_0_1_n_n.rhsIdx (ix2 r s) ((contrEquiv1 dot_S2048x7_S7x2048_S2048x2048_1_0_0_1_n_n 7 rfl rfl).symm k)) = x1 (ix2 s k) :=
    transpose_apply [1, 0] x1 transposes_S2048x7_p1_0_S7x2048 _ (ix2 s k) (fun b => match b with
      | ⟨0, _⟩ => show k.val = _ from ((rhs_0 (ix2 r s) _).trans hk).symm
      | ⟨1, _⟩ => show s.val = _ from (rhs_1 (ix2 r s) _).symm)
  rw [el, er]

/-! ## From tiles to the array -/

variable (m : (ℓ : Loc nD τ sig) → Buf (Elt Ideal) ℓ)

/-- A reader's tile at point `t` is z read through the block. -/
theorem iblk0_apply (c : Dev nD) (t : Fin cfg0.N) (y : S2048x7.Idx) :
    iblk m c 0 t y = V m c main_v34 (((cfg0.win 0).blk t).view.emb y) := rfl
theorem iblk1_apply (c : Dev nD) (t : Fin cfg0.N) (y : S2048x7.Idx) :
    iblk m c 1 t y = V m c main_v34 (((cfg0.win 1).blk t).view.emb y) := rfl

/-- The printed index maps, decided over the sixteen points: the first reader follows the output's row block,
    the second its column block, both stay in column block 0, and the output's block indices are below 4. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 3 :=
  (by decide +kernel : ∀ t : Fin grid0.N, _)

/-- Every block of the result is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- WHAT POINT `t` WRITES BACK is block `t` of the Gram matrix of z. -/
theorem flushed_eq (c : Dev nD) (t : Fin cfg0.N) :
    (dats m 0 c).flushed 2 t = ((cfg0.win 2).blk t).view.read (Elt Ideal) (gram (V m c main_v34)) := by
  show (cfg0.win 2).cut (grid0.coords t) ((dats m 0 c).after 2 t) = _
  rw [after_out]
  obtain ⟨e0, e1, e2, e3, e4, e5⟩ := idx_facts t
  funext j
  obtain ⟨r, s, rfl⟩ : ∃ (r s : Fin 2048), j = ix2 r s := ⟨j 0, j 1, eq_ix2 j⟩
  refine (tile_apply (iblk m c 0 t) (iblk m c 1 t) r s).trans ?_
  show _ = gram (V m c main_v34) (((cfg0.win 2).blk t).view.emb (ix2 r s))
  unfold gram
  refine Finset.sum_congr rfl fun k _ => ?_
  rw [iblk0_apply, iblk1_apply]
  have h0 : ((cfg0.win 0).blk t).view.emb (ix2 r k)
      = ix2 (⟨((((cfg0.win 2).blk t).view.emb (ix2 r s)) 0).val, idx2_lt0 _⟩ : Fin 8192) k := by
    funext a; apply Fin.ext
    match a with
    | ⟨0, _⟩ => show win0_0.index t (0 : Fin 2) * 2048 + 1 * r.val = win0_2.index t (0 : Fin 2) * 2048 + 1 * r.val; omega
    | ⟨1, _⟩ => show win0_0.index t (1 : Fin 2) * 7 + 1 * k.val = k.val; omega
  have h1 : ((cfg0.win 1).blk t).view.emb (ix2 s k)
      = ix2 (⟨((((cfg0.win 2).blk t).view.emb (ix2 r s)) 1).val, idx2_lt1 _⟩ : Fin 8192) k := by
    funext a; apply Fin.ext
    match a with
    | ⟨0, _⟩ => show win0_1.index t (0 : Fin 2) * 2048 + 1 * s.val = win0_2.index t (1 : Fin 2) * 2048 + 1 * s.val; omega
    | ⟨1, _⟩ => show win0_1.index t (1 : Fin 2) * 7 + 1 * k.val = k.val; omega
  rw [h0, h1]

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v35).slice (win0_2.rect t)).set ↔ _
  rw [View.set_slice_whole, Rect.mem_set_unit]
  exact Iff.rfl

/-- The sixteen blocks cover the result: entry (i, j) lies in the block of point (i / 2048, j / 2048). -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- THE RESULT'S BUFFER after the region: the Gram matrix of z. -/
theorem final (c : Dev nD) : (dats m 0 c).arrAt 2 cfg0.N = gram (V m c main_v34) :=
  (dats m 0 c).arrAt_eq_of_cover 2 (gram (V m c main_v34)) (fun t _ => flushed_eq m c t) cover

end Cert.KernelIdeal.Decode

end
-- ==== Proof.DecodeBridge.lean ====
/-
  The two programs compute one function, at the ideal instance.

  Up to the latent matrix z the two programs are the same forty-three host operations on the same arguments, so
  the kernel's z — the buffer its two reading windows stand on when the region is entered — is the reference's z.
  The reference then multiplies z by its transpose in one product: entry (i, j) is the sum over k of z(i, k) times
  the transpose at (k, j), that is z(j, k) — the Gram matrix of z. The kernel's region leaves the same Gram matrix
  in the result's buffer (tile by tile). Both flatten it row-major. No law beyond reading the two products as the
  same seven-term sums is needed, so the precondition is never opened.
-/
import proofs.«158562_j23356032156160_1_alg».proof.Proof.DecodeFrameIdeal
import proofs.«158562_j23356032156160_1_alg».proof.Proof.DecodeValue
import proofs.«158562_j23356032156160_1_alg».proof.Proof.Gen.ReferenceIdeal.Read

set_option maxRecDepth 16384

noncomputable section

/-! ## The reference's product is the Gram matrix of its z -/

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.DecodeSpec (gram)

/-- z times its transpose, entry by entry: the left factor is read at (i, k), the transpose at (k, j) is z at (j, k). -/
theorem product_eq_gram (x0 : (⟨S8192x512, .f32⟩ : BufTy).Contents (Elt Ideal)) (x1 x2 : (⟨S262144, .i32⟩ : BufTy).Contents (Elt Ideal)) (x3 : (⟨S262144, .f32⟩ : BufTy).Contents (Elt Ideal)) (x4 : (⟨S512x16, .f32⟩ : BufTy).Contents (Elt Ideal)) (x5 : (⟨S16, .f32⟩ : BufTy).Contents (Elt Ideal)) (x6 : (⟨S16x7, .f32⟩ : BufTy).Contents (Elt Ideal)) (x7 : (⟨S7, .f32⟩ : BufTy).Contents (Elt Ideal)) :
    val_main_v36 (F := Ideal) x0 x1 x2 x3 x4 x5 x6 x7 = gram (val_main_v34 (F := Ideal) x0 x1 x2 x3 x4 x5 x6 x7) := by
  funext i
  rw [val_main_v36_apply]
  simp only [val_main_v35_apply]
  generalize val_main_v34 (F := Ideal) x0 x1 x2 x3 x4 x5 x6 x7 = z
  unfold gram
  refine Finset.sum_congr rfl fun k _ => ?_
  have hl : lidx_main_v36 i k = ix2 (⟨(i 0).val, idx2_lt0 i⟩ : Fin 8192) k := funext fun a => by
    match a with
    | ⟨0, _⟩ => rfl
    | ⟨1, _⟩ => rfl
  have hr : idx_main_v35 (ridx_main_v36 i k) = ix2 (⟨(i 1).val, idx2_lt1 i⟩ : Fin 8192) k := funext fun a => by
    match a with
    | ⟨0, _⟩ => rfl
    | ⟨1, _⟩ => rfl
  rw [hl, hr]

/-- The reference's result: the flattened Gram matrix of its z. -/
theorem result_eq (x0 : (⟨S8192x512, .f32⟩ : BufTy).Contents (Elt Ideal)) (x1 x2 : (⟨S262144, .i32⟩ : BufTy).Contents (Elt Ideal)) (x3 : (⟨S262144, .f32⟩ : BufTy).Contents (Elt Ideal)) (x4 : (⟨S512x16, .f32⟩ : BufTy).Contents (Elt Ideal)) (x5 : (⟨S16, .f32⟩ : BufTy).Contents (Elt Ideal)) (x6 : (⟨S16x7, .f32⟩ : BufTy).Contents (Elt Ideal)) (x7 : (⟨S7, .f32⟩ : BufTy).Contents (Elt Ideal)) :
    val_main_v37 (F := Ideal) x0 x1 x2 x3 x4 x5 x6 x7
      = shapeCast S67108864 (gram (val_main_v34 (F := Ideal) x0 x1 x2 x3 x4 x5 x6 x7)) shapeCasts_S8192x8192_S67108864 := by
  unfold val_main_v37
  rw [product_eq_gram]

end Cert.ReferenceIdeal.RefValue

/-! ## The kernel's z is the reference's z, and the kernel's run re-posted -/

namespace Cert.KernelIdeal.Decode

open Idealize.ShloMosaic Idealize.ShloMosaic.TcCoe Idealize.SL.Sem
open Cert.DecodeSpec (gram)

variable (m : (ℓ : Loc Cert.KernelIdeal.nD Cert.KernelIdeal.τ Cert.KernelIdeal.sig) → Buf (Elt Ideal) ℓ) (ρ : Dev Cert.KernelIdeal.nD → PrngReg)

/-- When the region is entered the buffer of z holds the reference's z of the same arguments: the same operations
    in the same order. -/
theorem z_eq (c : Dev Cert.KernelIdeal.nD) :
    Vin m c (Proc.devRef .tc Cert.KernelIdeal.main_v34) = Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  unfold Vin
  after_results_simp
  rfl

/-- The kernel's flattened result is the reference's result of the same arguments. -/
theorem result_eq (c : Dev Cert.KernelIdeal.nD) :
    Vend m c (Proc.devRef .tc Cert.KernelIdeal.main_v36) = Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Vend_result, final, Cert.ReferenceIdeal.RefValue.result_eq]
  show shapeCast _ (gram (Vin m c (Proc.devRef .tc Cert.KernelIdeal.main_v34))) _ = _
  rw [z_eq]

/-- The kernel's run at the ideal instance: it ends with the result at the reference's function of the arguments,
    and the arguments as launched. -/
theorem run_value : θ_run Cert.KernelIdeal.defs (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v36) = Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨(h c _ (mem_uc Cert.KernelIdeal.main_v36 rfl)).trans (result_eq m c),
      (h c _ (mem_uc Cert.KernelIdeal.main_arg0 rfl)).trans (Vend_arg0 m c),
      (h c _ (mem_uc Cert.KernelIdeal.main_arg1 rfl)).trans (Vend_arg1 m c),
      (h c _ (mem_uc Cert.KernelIdeal.main_arg2 rfl)).trans (Vend_arg2 m c),
      (h c _ (mem_uc Cert.KernelIdeal.main_arg3 rfl)).trans (Vend_arg3 m c),
      (h c _ (mem_uc Cert.KernelIdeal.main_arg4 rfl)).trans (Vend_arg4 m c),
      (h c _ (mem_uc Cert.KernelIdeal.main_arg5 rfl)).trans (Vend_arg5 m c),
      (h c _ (mem_uc Cert.KernelIdeal.main_arg6 rfl)).trans (Vend_arg6 m c),
      (h c _ (mem_uc Cert.KernelIdeal.main_arg7 rfl)).trans (Vend_arg7 m c)⟩)
    (run_all m ρ)

end Cert.KernelIdeal.Decode

end
-- ==== Proof.lean ====
/-
  The certificate of the decode kernel against its reference.

  Both programs run two sparse graph-convolution layers on the host — the same operations in the same order — to a
  latent matrix z (8192 rows, 7 columns), and return the flattened 8192×8192 matrix of inner products of rows of z.
  The reference forms z·zᵀ with one matrix product. The kernel tiles it: a 4×4 grid of 2048×2048 output tiles, the
  tile at (a, b) the product of the a-th 2048-row block of z with the transpose of the b-th, each product
  accumulated from zero; the two blocks are read through two windows standing on the one buffer of z.

  The three frames. The word-level kernel and the idealized kernel are one program text read at two float
  instances; their frame is proved once for every instance from the program's five segments (three host stretches,
  the region, the flattening), the buffer of z split in two half shares for the region's two readers. The
  reference is host operations only; its frame is its run with the result dropped.

  Nothing was rewritten by idealization, so there is nothing to preserve.

  The values. At the ideal instance a matrix product into a zero accumulator and the host's matrix product are the
  same sum over the seven columns, the transpose read at (k, j) is z at (j, k), and the sixteen tiles cover the
  result; so both programs end with the flattened Gram matrix of the same z. Sums are never reordered and no
  factor is moved across one, so finiteness of the inputs is not used.
-/
import proofs.«158562_j23356032156160_1_alg».proof.Defs
import proofs.«158562_j23356032156160_1_alg».proof.Proof.Gen.Kernel
import proofs.«158562_j23356032156160_1_alg».proof.Proof.Gen.KernelIdeal
import proofs.«158562_j23356032156160_1_alg».proof.Proof.Gen.ReferenceIdeal
import proofs.«158562_j23356032156160_1_alg».proof.Proof.Gen.Pre_finite_inputs
import proofs.«158562_j23356032156160_1_alg».proof.Proof.Gen.ReferenceIdeal.Run
import proofs.«158562_j23356032156160_1_alg».proof.Proof.Gen.ReferenceIdeal.Read
import proofs.«158562_j23356032156160_1_alg».proof.Proof.DecodeFrameBits
import proofs.«158562_j23356032156160_1_alg».proof.Proof.DecodeFrameIdeal
import proofs.«158562_j23356032156160_1_alg».proof.Proof.DecodeBridge

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Decode.frame m ρ

/-- So does the idealized kernel. -/
theorem frame_ki : Cert.frame_KernelIdeal := fun m ρ _ => Cert.KernelIdeal.Decode.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the flattened Gram matrix of the same z. -/
theorem algebraic : Cert.algebraic_KernelIdeal_ReferenceIdeal := by
  intro m ρ m' ρ' _ hagree
  refine ⟨_, Cert.KernelIdeal.Decode.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
